-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048 .f32) (main_arg8 : FVec F S2048x2048 .f32) (main_arg9 : FVec F S2048x2048 .f32) (main_arg10 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S2048x2048 .f32) (main_arg3 : FVec F S2048x2048 .f32) (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩

abbrev nBuf : Space → Nat
  | .hbm => 23
  | .vmem => 31
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S8192x2048, .bf16⟩
  | .hbm, ⟨21, _⟩ => ⟨S8192x2048, .bf16⟩
  | .hbm, ⟨22, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S2048x2048, .bf16⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S2048x2048, .bf16⟩
  | .local _ .vmem, ⟨14, _⟩ => ⟨S2048x2048, .bf16⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S2048x2048, .bf16⟩
  | .local _ .vmem, ⟨27, _⟩ => ⟨S2048x2048, .bf16⟩
  | .local _ .vmem, ⟨28, _⟩ => ⟨S1x2048, .f32⟩
  | .local _ .vmem, ⟨29, _⟩ => ⟨S256x2048, .f32⟩
  | .local _ .vmem, ⟨30, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S2048x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  shapeCasts_S256x2048_S256x2048 : S256x2048.ShapeCasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .bf16 = 32 ∨ (Rect.block (s := S8192x2048) S256x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S2048x2048.size a
  hwx1_2 : ∀ i : grid1.Coords, EltTy.bits .bf16 = 32 ∨ (Rect.block (s := S2048x2048) S2048x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x2048.size a ≤ S8192x2048.size a
  hwx1_5 : ∀ i : grid1.Coords, EltTy.bits .bf16 = 32 ∨ (Rect.block (s := S8192x2048) S256x2048.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S8192x2048.size a
  hwx2_0 : ∀ i : grid2.Coords, EltTy.bits .f32 = 32 ∨ (Rect.block (s := S8192x2048) S256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S8192x2048.size a
  hwx2_1 : ∀ i : grid2.Coords, EltTy.bits .f32 = 32 ∨ (Rect.block (s := S8192x2048) S256x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x2048.size a ≤ S8192x2048.size a
  hwx2_2 : ∀ i : grid2.Coords, EltTy.bits .bf16 = 32 ∨ (Rect.block (s := S8192x2048) S256x2048.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S8192x2048.size a
  hwx2_3 : ∀ i : grid2.Coords, EltTy.bits .bf16 = 32 ∨ (Rect.block (s := S8192x2048) S256x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x2048.size a ≤ S2048x2048.size a
  hwx2_4 : ∀ i : grid2.Coords, EltTy.bits .bf16 = 32 ∨ (Rect.block (s := S2048x2048) S2048x2048.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2048x2048.size a ≤ S2048x2048.size a
  hwx2_5 : ∀ i : grid2.Coords, EltTy.bits .bf16 = 32 ∨ (Rect.block (s := S2048x2048) S2048x2048.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x2048.size a ≤ S8192x2048.size a
  hwx2_7 : ∀ i : grid2.Coords, EltTy.bits .f32 = 32 ∨ (Rect.block (s := S8192x2048) S256x2048.size (cc2_transform_7 i) (hinb2_7 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S256x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S2048x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S2048x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S256x2048.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S2048x6144 : Shape := ⟨2, ![2048, 6144]⟩
abbrev S8192x6144 : Shape := ⟨2, ![8192, 6144]⟩
abbrev S2048x4096 : Shape := ⟨2, ![2048, 4096]⟩
abbrev S8192x4096 : Shape := ⟨2, ![8192, 4096]⟩
abbrev S1x2048 : Shape := ⟨2, ![1, 2048]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x6144, .f32⟩
  | .hbm, ⟨12, _⟩ => ⟨S8192x6144, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S2048x4096, .f32⟩
  | .hbm, ⟨17, _⟩ => ⟨S8192x4096, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  concatenates_S2048x2048_S2048x2048_S2048x2048_S2048x6144_d1 : Shape.Concatenates [S2048x2048, S2048x2048, S2048x2048] S2048x6144 1
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  concatenates_S2048x2048_S2048x2048_S2048x4096_d1 : Shape.Concatenates [S2048x2048, S2048x2048] S2048x4096 1
  slices_S8192x4096_S8192x2048_0_0 : S8192x4096.Slices ![0, 0] S8192x2048
  slices_S8192x4096_S8192x2048_0_2048 : S8192x4096.Slices ![0, 2048] S8192x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  dot_S8192x2048_S2048x6144_S8192x6144_1_0_0_1_n_n_wf : DotDims.WF S8192x2048 S2048x6144 S8192x6144 [1] [0] [0] [1] [] []
  dot_S8192x2048_S2048x4096_S8192x4096_1_0_0_1_n_n_wf : DotDims.WF S8192x2048 S2048x4096 S8192x4096 [1] [0] [0] [1] [] []
  dot_S8192x2048_S2048x2048_S8192x2048_1_0_0_1_n_n_wf : DotDims.WF S8192x2048 S2048x2048 S8192x2048 [1] [0] [0] [1] [] []

variable [Facts₀]

def dot_S8192x2048_S2048x6144_S8192x6144_1_0_0_1_n_n : DotDims S8192x2048 S2048x6144 S8192x6144 where
  lhsContracting := [1]
  rhsContracting := [0]
  lhsNonContracting := [0]
  rhsNonContracting := [1]
  lhsBatch := []
  rhsBatch := []
  wf := dot_S8192x2048_S2048x6144_S8192x6144_1_0_0_1_n_n_wf
def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KernelRun.lean ====
/-
  The run of the three launches with the result array named.

  Every weakly fair execution of the program ends with each buffer the thread holds at the contents the three
  regions leave in turn: the host conversions, then the update-gate launch, the reset-gate launch and the
  last launch, each writing its output array block by block. Read at the result buffer this gives the new state
  as the last region's output array, beside the eleven arguments unchanged.
-/
import proofs.«180760_j50062138802351_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, the result buffer ends at the last boundary's contents, the arguments end as launched. -/
theorem run : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Run

end
-- ==== Proof.Spec.lean ====
/-
  The gated recurrent cell on the extended reals, index by index.

  For a batch of rows `x`, `h` (each row of length 2048), square weights `W`, `U` and a bias `b`, a gate's
  pre-activation at row `p`, column `q` is `(x W)(p, q) + (h U)(p, q) + b q`, each matrix product a plain sum
  over the 2048 columns. The update gate is `z = σ(pre)`, the reset gate enters only through `r ⊙ h = σ(pre) ⊙ h`,
  and the new state is `(1 - z) ⊙ h + z ⊙ tanh(x Wh + (r ⊙ h) Uh + bh)`, with `σ s = 1 / (1 + e^(-s))`.
  Nothing here needs a finite input: both programs apply these operations in this order, so the two sides are
  one expression of the extended reals.
-/
import Idealize.ShloMosaic.PureOps.Ideal
import Idealize.ShloMosaic.Lib.ValueIdx

noncomputable section

open scoped BigOperators

namespace Cert.Gru

open Idealize.ShloMosaic Idealize.ShloMosaic.ValueIdx

/-- A batch of rows of length 2048. -/
abbrev Rows (R : Nat) : Shape := ⟨2, ![R, 2048]⟩
/-- A square weight matrix. -/
abbrev SW : Shape := ⟨2, ![2048, 2048]⟩

/-- The float word of `1.0`, which both programs spell as a literal. -/
abbrev one : EReal := Ideal.ofBits .f32 0x3F800000#32

/-- That word denotes the real number one. -/
theorem one_eq : one = 1 := by
  simp [one, Ideal.ofBits, Ideal.ieee, -EReal.coe_mul]; norm_num

/-- A gate's pre-activation at row `p`, column `q`: `(x W)(p, q) + (h U)(p, q) + b q`. -/
def pre {R : Nat} (x h : (Rows R).Idx → EReal) (W U : SW.Idx → EReal) (b : Fin 2048 → EReal)
    (p : Fin R) (q : Fin 2048) : EReal :=
  (∑ k : Fin 2048, x (ix2 p k) * W (ix2 k q)) + (∑ k : Fin 2048, h (ix2 p k) * U (ix2 k q)) + b q

/-- The pre-activation at a row depends on that row of `x` and of `h` alone: a block of rows read in place. -/
theorem pre_congr {R R' : Nat} (x h : (Rows R).Idx → EReal) (x' h' : (Rows R').Idx → EReal)
    (W U : SW.Idx → EReal) (b : Fin 2048 → EReal) (p : Fin R) (p' : Fin R') (q : Fin 2048)
    (hx : ∀ k, x (ix2 p k) = x' (ix2 p' k)) (hh : ∀ k, h (ix2 p k) = h' (ix2 p' k)) :
    pre x h W U b p q = pre x' h' W U b p' q := by
  unfold pre
  simp only [hx, hh]

/-- The update gate `z = σ(x Wz + h Uz + bz)`. -/
def zGate {R : Nat} (x h : (Rows R).Idx → EReal) (W U : SW.Idx → EReal) (b : Fin 2048 → EReal) :
    (Rows R).Idx → EReal :=
  fun i => Ideal.logistic (pre x h W U b (i 0) (i 1))

/-- The reset gate applied to the state, `r ⊙ h = σ(x Wr + h Ur + br) ⊙ h`. -/
def rhGate {R : Nat} (x h : (Rows R).Idx → EReal) (W U : SW.Idx → EReal) (b : Fin 2048 → EReal) :
    (Rows R).Idx → EReal :=
  fun i => Ideal.logistic (pre x h W U b (i 0) (i 1)) * h i

/-- The new state from the two gates: `(1 - z) ⊙ h + z ⊙ tanh(x Wh + (r ⊙ h) Uh + bh)`. -/
def newState {R : Nat} (x h z rh : (Rows R).Idx → EReal) (W U : SW.Idx → EReal) (b : Fin 2048 → EReal) :
    (Rows R).Idx → EReal :=
  fun i => (one - z i) * h i + z i * Ideal.tanh (pre x rh W U b (i 0) (i 1))

/-- The whole cell: the new state of the gates of the arguments. -/
def cell {R : Nat} (x h : (Rows R).Idx → EReal) (Wz Uz : SW.Idx → EReal) (bz : Fin 2048 → EReal)
    (Wr Ur : SW.Idx → EReal) (br : Fin 2048 → EReal) (Wh Uh : SW.Idx → EReal) (bh : Fin 2048 → EReal) :
    (Rows R).Idx → EReal :=
  newState x h (zGate x h Wz Uz bz) (rhGate x h Wr Ur br) Wh Uh bh

theorem zGate_apply {R : Nat} (x h : (Rows R).Idx → EReal) (W U : SW.Idx → EReal) (b : Fin 2048 → EReal)
    (p : Fin R) (q : Fin 2048) : zGate x h W U b (ix2 p q) = Ideal.logistic (pre x h W U b p q) := rfl

theorem rhGate_apply {R : Nat} (x h : (Rows R).Idx → EReal) (W U : SW.Idx → EReal) (b : Fin 2048 → EReal)
    (p : Fin R) (q : Fin 2048) :
    rhGate x h W U b (ix2 p q) = Ideal.logistic (pre x h W U b p q) * h (ix2 p q) := rfl

theorem newState_apply {R : Nat} (x h z rh : (Rows R).Idx → EReal) (W U : SW.Idx → EReal) (b : Fin 2048 → EReal)
    (p : Fin R) (q : Fin 2048) :
    newState x h z rh W U b (ix2 p q)
      = (one - z (ix2 p q)) * h (ix2 p q) + z (ix2 p q) * Ideal.tanh (pre x rh W U b p q) := rfl

end Cert.Gru

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.Payloads.lean ====
/-
  What each of the three kernel bodies stores, read at an index of its block, on the extended reals.

  Every body forms, for its block of 256 rows, the pre-activation `x W + h U + b` from two plain block products into
  a zero accumulator (the sums over the 2048 columns) and the bias row copied down the block; changes of float
  format are the identity. The first body stores `σ(pre)`; the second `σ(pre) ⊙ h` with `h` the block it loaded a
  second time; the third `(1 - z) ⊙ h + z ⊙ tanh(pre)`, its second product taken against the stored `r ⊙ h` block.
  The three lemmas are stated over variables for the loaded blocks.
-/
import proofs.«180760_j50062138802351_2_alg».proof.Proof.Gen.KernelIdeal.Skeleton
import proofs.«180760_j50062138802351_2_alg».proof.Proof.Spec
import proofs.«180760_j50062138802351_2_alg».proof.Proof.LibPlainDot
import Idealize.ShloMosaic.Lib.Pipeline.Value
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx Cert.Gru

/-- A block product `[256, 2048] × [2048, 2048]` into the zero accumulator at `(p, q)`: the sum over the columns. -/
theorem block_product (l : FVec Ideal S256x2048 .bf16) (r : FVec Ideal S2048x2048 .bf16) (p : Fin 256) (q : Fin 2048) :
    FloatOps.matmul dot_S256x2048_S2048x2048_S256x2048_1_0_0_1_n_n none l r (constant S256x2048 .f32 0x00000000#32) (ix2 p q)
      = ∑ k : Fin 2048, l (ix2 p k) * r (ix2 k q) :=
  Cert.LibPlainDot.matmul_zero_apply Facts₀.dot_S256x2048_S2048x2048_S256x2048_1_0_0_1_n_n_wf none l r p q

/-- The update gate's body stores `σ(x W + h U + b)`. -/
theorem pay0_apply (x0 x1 : Vec Ideal S256x2048 .f32) (x2 x3 : Vec Ideal S2048x2048 .bf16) (x4 : Vec Ideal S1x2048 .f32)
    (p : Fin 256) (q : Fin 2048) :
    k0_pay1 (F := Ideal) x0 x1 x2 x3 x4 (ix2 p q)
      = Ideal.logistic (pre x0 x1 x2 x3 (fun c => x4 (ix2 (0 : Fin 1) c)) p q) := by
  unfold k0_pay1
  simp only [shapeCast_self]
  show Ideal.logistic ((FloatOps.matmul (F := Ideal) _ none _ x2 _ (ix2 p q) + FloatOps.matmul (F := Ideal) _ none _ x3 _ (ix2 p q))
    + broadcastTo S256x2048 x4 _ (ix2 p q)) = _
  rw [block_product, block_product, broadcastTo_1b_ab_apply]
  rfl

/-- The reset gate's body stores `σ(x W + h U + b) ⊙ h`, `h` the block loaded again. -/
theorem pay1_apply (x0 x1 : Vec Ideal S256x2048 .f32) (x2 x3 : Vec Ideal S2048x2048 .bf16) (x4 : Vec Ideal S1x2048 .f32)
    (x5 : Vec Ideal S256x2048 .f32) (p : Fin 256) (q : Fin 2048) :
    k1_pay1 (F := Ideal) x0 x1 x2 x3 x4 x5 (ix2 p q)
      = Ideal.logistic (pre x0 x1 x2 x3 (fun c => x4 (ix2 (0 : Fin 1) c)) p q) * x5 (ix2 p q) := by
  unfold k1_pay1
  simp only [shapeCast_self]
  show Ideal.logistic ((FloatOps.matmul (F := Ideal) _ none _ x2 _ (ix2 p q) + FloatOps.matmul (F := Ideal) _ none _ x3 _ (ix2 p q))
    + broadcastTo S256x2048 x4 _ (ix2 p q)) * x5 (ix2 p q) = _
  rw [block_product, block_product, broadcastTo_1b_ab_apply]
  rfl

/-- The last body stores `(1 - z) ⊙ h + z ⊙ tanh(x W + rh U + b)`: `rh` the stored reset-gate block, `z` the stored
    update-gate block, `h` the state block. -/
theorem pay2_apply (x : Vec Ideal S256x2048 .f32) (rh : Vec Ideal S256x2048 .bf16) (W U : Vec Ideal S2048x2048 .bf16)
    (b : Vec Ideal S1x2048 .f32) (z : Vec Ideal S256x2048 .bf16) (h : Vec Ideal S256x2048 .f32) (p : Fin 256) (q : Fin 2048) :
    k2_pay1 (F := Ideal) x rh W U b z h (ix2 p q)
      = (one - z (ix2 p q)) * h (ix2 p q)
        + z (ix2 p q) * Ideal.tanh (pre x rh W U (fun c => b (ix2 (0 : Fin 1) c)) p q) := by
  unfold k2_pay1
  simp only [shapeCast_self]
  show (one - z (ix2 p q)) * h (ix2 p q) + z (ix2 p q) * Ideal.tanh ((FloatOps.matmul (F := Ideal) _ none _ W _ (ix2 p q)
    + FloatOps.matmul (F := Ideal) _ none _ U _ (ix2 p q)) + broadcastTo S256x2048 b _ (ix2 p q)) = _
  rw [block_product, block_product, broadcastTo_1b_ab_apply]
  rfl

end Cert.KernelIdeal.Payloads

end
-- ==== Proof.Region0.lean ====
/-
  The update-gate launch: its output array is `z = σ(x Wz + h Uz + bz)` of the arrays the launch finds.

  The grid has 32 points; point `t` takes rows `256 t … 256 t + 255` of `x` and of `h`, the two weight arrays and the
  bias row whole, and writes rows `256 t … 256 t + 255` of the output. A gate's value at a row needs only that row
  of `x` and `h`, so what a point writes is the whole-array gate read through the point's block; the 32 blocks
  cover the 8192 rows.
-/
import proofs.«180760_j50062138802351_2_alg».proof.Proof.Gen.KernelIdeal.Frame
import proofs.«180760_j50062138802351_2_alg».proof.Proof.Payloads
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Gru Cert.KernelIdeal.Payloads
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block is some point's. -/
theorem idx_onto : ∀ q0 : Fin 32, ∃ t : Fin cfg0.N, win0_5.index t = ![q0.val, 0] :=
  (by decide +kernel : ∀ q0 : Fin 32, ∃ t : Fin grid0.N, win0_5.index t = ![q0.val, 0])

/-- The value at an index of a block, from the blocks the body loads, when those blocks are the arrays' rows. -/
theorem point (x0 x1 : Vec Ideal S256x2048 .f32) (x2 x3 : Vec Ideal S2048x2048 .bf16) (x4 : Vec Ideal S1x2048 .f32)
    (A0 A1 : (Rows 8192).Idx → EReal) (W U : SW.Idx → EReal) (B : S1x2048.Idx → EReal)
    (j : S256x2048.Idx) (i : (Rows 8192).Idx)
    (h0 : ∀ k : Fin 2048, x0 (ix2 (j 0) k) = A0 (ix2 (i 0) k))
    (h1 : ∀ k : Fin 2048, x1 (ix2 (j 0) k) = A1 (ix2 (i 0) k))
    (h2 : x2 = W) (h3 : x3 = U) (h4 : x4 = B) (hq : (i 1).val = (j 1).val) :
    k0_pay1 (F := Ideal) x0 x1 x2 x3 x4 j = zGate A0 A1 W U (fun q => B (ix2 (0 : Fin 1) q)) i := by
  subst h2 h3 h4
  obtain ⟨p, q, rfl⟩ : ∃ (p : Fin 256) (q : Fin 2048), j = ix2 p q := ⟨j 0, j 1, eq_ix2 j⟩
  obtain ⟨r, q', rfl⟩ : ∃ (r : Fin 8192) (q' : Fin 2048), i = ix2 r q' := ⟨i 0, i 1, eq_ix2 i⟩
  obtain rfl : q' = q := Fin.ext hq
  rw [pay0_apply, zGate_apply]
  exact congrArg Ideal.logistic (pre_congr _ _ _ _ _ _ _ p r q' h0 h1)

/-- Row `p` of point `t`'s block of `x` is the array's row under the output block's row. -/
theorem rows0 (c : Dev nD) (t : Fin cfg0.N) (j : S256x2048.Idx) (k : Fin 2048) :
    iblk0 V c 0 t (ix2 (j 0) k) = V c main_arg0 (ix2 ((((cfg0.win 5).blk t).view.emb j) 0) k) := by
  obtain ⟨e0, e1, e2, e3, e4, e5, e6, e7, e8, e9, e10, e11⟩ := idx_facts t
  show V c main_arg0 (((cfg0.win 0).blk t).view.emb (ix2 (j 0) k)) = _
  refine congrArg (V c main_arg0) ?_
  funext a; apply Fin.ext
  match a with
  | ⟨0, _⟩ => show win0_0.index t (0 : Fin 2) * 256 + 1 * (j 0).val = win0_5.index t (0 : Fin 2) * 256 + 1 * (j 0).val; omega
  | ⟨1, _⟩ => show win0_0.index t (1 : Fin 2) * 2048 + 1 * k.val = k.val; omega

/-- The same for the state `h`. -/
theorem rows1 (c : Dev nD) (t : Fin cfg0.N) (j : S256x2048.Idx) (k : Fin 2048) :
    iblk0 V c 1 t (ix2 (j 0) k) = V c main_arg1 (ix2 ((((cfg0.win 5).blk t).view.emb j) 0) k) := by
  obtain ⟨e0, e1, e2, e3, e4, e5, e6, e7, e8, e9, e10, e11⟩ := idx_facts t
  show V c main_arg1 (((cfg0.win 1).blk t).view.emb (ix2 (j 0) k)) = _
  refine congrArg (V c main_arg1) ?_
  funext a; apply Fin.ext
  match a with
  | ⟨0, _⟩ => show win0_1.index t (0 : Fin 2) * 256 + 1 * (j 0).val = win0_5.index t (0 : Fin 2) * 256 + 1 * (j 0).val; omega
  | ⟨1, _⟩ => show win0_1.index t (1 : Fin 2) * 2048 + 1 * k.val = k.val; omega

/-- A weight window's one block is its whole array. -/
theorem whole2 (c : Dev nD) (t : Fin cfg0.N) : iblk0 V c 2 t = V c main_v0 := by
  obtain ⟨e0, e1, e2, e3, e4, e5, e6, e7, e8, e9, e10, e11⟩ := idx_facts t
  funext y
  show V c main_v0 (((cfg0.win 2).blk t).view.emb y) = V c main_v0 y
  refine congrArg (V c main_v0) ?_
  funext a; apply Fin.ext
  match a with
  | ⟨0, _⟩ => show win0_2.index t (0 : Fin 2) * 2048 + 1 * (y 0).val = (y 0).val; omega
  | ⟨1, _⟩ => show win0_2.index t (1 : Fin 2) * 2048 + 1 * (y 1).val = (y 1).val; omega

theorem whole3 (c : Dev nD) (t : Fin cfg0.N) : iblk0 V c 3 t = V c main_v1 := by
  obtain ⟨e0, e1, e2, e3, e4, e5, e6, e7, e8, e9, e10, e11⟩ := idx_facts t
  funext y
  show V c main_v1 (((cfg0.win 3).blk t).view.emb y) = V c main_v1 y
  refine congrArg (V c main_v1) ?_
  funext a; apply Fin.ext
  match a with
  | ⟨0, _⟩ => show win0_3.index t (0 : Fin 2) * 2048 + 1 * (y 0).val = (y 0).val; omega
  | ⟨1, _⟩ => show win0_3.index t (1 : Fin 2) * 2048 + 1 * (y 1).val = (y 1).val; omega

/-- The bias window's one block is the whole bias row. -/
theorem whole4 (c : Dev nD) (t : Fin cfg0.N) : iblk0 V c 4 t = V c main_v6 := by
  obtain ⟨e0, e1, e2, e3, e4, e5, e6, e7, e8, e9, e10, e11⟩ := idx_facts t
  funext y
  show V c main_v6 (((cfg0.win 4).blk t).view.emb y) = V c main_v6 y
  refine congrArg (V c main_v6) ?_
  funext a; apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega

/-- The output block keeps the column. -/
theorem col5 (t : Fin cfg0.N) (j : S256x2048.Idx) :
    ((((cfg0.win 5).blk t).view.emb j) 1).val = (j 1).val := by
  obtain ⟨e0, e1, e2, e3, e4, e5, e6, e7, e8, e9, e10, e11⟩ := idx_facts t
  show win0_5.index t (1 : Fin 2) * 2048 + 1 * (j 1).val = (j 1).val
  omega

/-- What point `t` writes back is block `t` of the gate of the arrays as the launch finds them. -/
theorem flushed_eq (c : Dev nD) (t : Fin cfg0.N) :
    (dat0 V c).flushed 5 t = ((cfg0.win 5).blk t).view.read (Elt Ideal)
      (zGate (V c main_arg0) (V c main_arg1) (V c main_v0) (V c main_v1) (fun q => V c main_v6 (ix2 (0 : Fin 1) q))) := by
  show (cfg0.win 5).cut (grid0.coords t) ((dat0 V c).after 5 t) = _
  rw [after0_5]
  unfold out0_5
  rw [View.canon_unit_zero hz]
  simp only [View.ld_unit_zero (S := S256x2048) hz, View.ld_unit_zero (S := S2048x2048) hz, View.ld_unit_zero (S := S1x2048) hz]
  funext j
  show k0_pay1 (F := Ideal) (iblk0 V c 0 t) (iblk0 V c 1 t) (iblk0 V c 2 t) (iblk0 V c 3 t) (iblk0 V c 4 t) j
    = zGate (V c main_arg0) (V c main_arg1) (V c main_v0) (V c main_v1) (fun q => V c main_v6 (ix2 (0 : Fin 1) q))
        (((cfg0.win 5).blk t).view.emb j)
  exact point (iblk0 V c 0 t) (iblk0 V c 1 t) (iblk0 V c 2 t) (iblk0 V c 3 t) (iblk0 V c 4 t)
    (V c main_arg0) (V c main_arg1) (V c main_v0) (V c main_v1) (V c main_v6) j (((cfg0.win 5).blk t).view.emb j)
    (fun k => rows0 V c t j k) (fun k => rows1 V c t j k) (whole2 V c t) (whole3 V c t) (whole4 V c t) (col5 t j)

/-- An index of the output array is in point `t`'s block iff each coordinate is in the block's range. -/
theorem mem_blk (t : Fin cfg0.N) (i : S8192x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v9).slice (win0_5.rect t)).set ↔ _
  rw [View.set_slice_whole, Rect.mem_set_unit]
  exact Iff.rfl

/-- The blocks cover the array: row `r` is in the block of point `r / 256`. -/
theorem cover (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := idx_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2048 ≤ (i 1).val ∧ (i 1).val < win0_5.index t (1 : Fin 2) * 2048 + 2048; omega

/-- THE OUTPUT ARRAY after the launch: the update gate of the arrays the launch finds. -/
theorem final (c : Dev nD) :
    (dat0 V c).arrAt 5 cfg0.N
      = zGate (V c main_arg0) (V c main_arg1) (V c main_v0) (V c main_v1) (fun q => V c main_v6 (ix2 (0 : Fin 1) q)) :=
  (dat0 V c).arrAt_eq_of_cover 5 _ (fun t _ => flushed_eq V c t) cover

end Cert.KernelIdeal.Region0

end
-- ==== Proof.Region1.lean ====
/-
  The reset-gate launch: its output array is `r ⊙ h = σ(x Wr + h Ur + br) ⊙ h` of the arrays the launch finds.

  The grid has 32 points; point `t` takes rows `256 t … 256 t + 255` of `x` and of `h`, the two weight arrays and the
  bias row whole, and writes rows `256 t … 256 t + 255` of the output. The gate at a row needs only that row
  of `x` and `h`, and the factor `h` is the same block read a second time, so what a point writes is the whole-array
  product read through the point's block; the 32 blocks cover the 8192 rows.
-/
import proofs.«180760_j50062138802351_2_alg».proof.Proof.Gen.KernelIdeal.Frame
import proofs.«180760_j50062138802351_2_alg».proof.Proof.Payloads
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Gru Cert.KernelIdeal.Payloads
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row blocks move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block is some point's. -/
theorem idx_onto : ∀ q0 : Fin 32, ∃ t : Fin cfg1.N, win1_5.index t = ![q0.val, 0] :=
  (by decide +kernel : ∀ q0 : Fin 32, ∃ t : Fin grid1.N, win1_5.index t = ![q0.val, 0])

/-- The value at an index of a block, from the blocks the body loads, when those blocks are the arrays' rows. -/
theorem point (x0 x1 : Vec Ideal S256x2048 .f32) (x2 x3 : Vec Ideal S2048x2048 .bf16) (x4 : Vec Ideal S1x2048 .f32)
    (A0 A1 : (Rows 8192).Idx → EReal) (W U : SW.Idx → EReal) (B : S1x2048.Idx → EReal)
    (j : S256x2048.Idx) (i : (Rows 8192).Idx)
    (h0 : ∀ k : Fin 2048, x0 (ix2 (j 0) k) = A0 (ix2 (i 0) k))
    (h1 : ∀ k : Fin 2048, x1 (ix2 (j 0) k) = A1 (ix2 (i 0) k))
    (h2 : x2 = W) (h3 : x3 = U) (h4 : x4 = B) (hq : (i 1).val = (j 1).val) :
    k1_pay1 (F := Ideal) x0 x1 x2 x3 x4 x1 j = rhGate A0 A1 W U (fun q => B (ix2 (0 : Fin 1) q)) i := by
  subst h2 h3 h4
  obtain ⟨p, q, rfl⟩ : ∃ (p : Fin 256) (q : Fin 2048), j = ix2 p q := ⟨j 0, j 1, eq_ix2 j⟩
  obtain ⟨r, q', rfl⟩ : ∃ (r : Fin 8192) (q' : Fin 2048), i = ix2 r q' := ⟨i 0, i 1, eq_ix2 i⟩
  obtain rfl : q' = q := Fin.ext hq
  rw [pay1_apply, rhGate_apply, pre_congr _ _ _ _ _ _ _ p r q' h0 h1]
  exact congrArg (Ideal.logistic _ * ·) (h1 q')

/-- Row `p` of point `t`'s block of `x` is the array's row under the output block's row. -/
theorem rows0 (c : Dev nD) (t : Fin cfg1.N) (j : S256x2048.Idx) (k : Fin 2048) :
    iblk1 V c 0 t (ix2 (j 0) k) = V c main_arg0 (ix2 ((((cfg1.win 5).blk t).view.emb j) 0) k) := by
  obtain ⟨e0, e1, e2, e3, e4, e5, e6, e7, e8, e9, e10, e11⟩ := idx_facts t
  show V c main_arg0 (((cfg1.win 0).blk t).view.emb (ix2 (j 0) k)) = _
  refine congrArg (V c main_arg0) ?_
  funext a; apply Fin.ext
  match a with
  | ⟨0, _⟩ => show win1_0.index t (0 : Fin 2) * 256 + 1 * (j 0).val = win1_5.index t (0 : Fin 2) * 256 + 1 * (j 0).val; omega
  | ⟨1, _⟩ => show win1_0.index t (1 : Fin 2) * 2048 + 1 * k.val = k.val; omega

/-- The same for the state `h`. -/
theorem rows1 (c : Dev nD) (t : Fin cfg1.N) (j : S256x2048.Idx) (k : Fin 2048) :
    iblk1 V c 1 t (ix2 (j 0) k) = V c main_arg1 (ix2 ((((cfg1.win 5).blk t).view.emb j) 0) k) := by
  obtain ⟨e0, e1, e2, e3, e4, e5, e6, e7, e8, e9, e10, e11⟩ := idx_facts t
  show V c main_arg1 (((cfg1.win 1).blk t).view.emb (ix2 (j 0) k)) = _
  refine congrArg (V c main_arg1) ?_
  funext a; apply Fin.ext
  match a with
  | ⟨0, _⟩ => show win1_1.index t (0 : Fin 2) * 256 + 1 * (j 0).val = win1_5.index t (0 : Fin 2) * 256 + 1 * (j 0).val; omega
  | ⟨1, _⟩ => show win1_1.index t (1 : Fin 2) * 2048 + 1 * k.val = k.val; omega

/-- A weight window's one block is its whole array. -/
theorem whole2 (c : Dev nD) (t : Fin cfg1.N) : iblk1 V c 2 t = V c main_v2 := by
  obtain ⟨e0, e1, e2, e3, e4, e5, e6, e7, e8, e9, e10, e11⟩ := idx_facts t
  funext y
  show V c main_v2 (((cfg1.win 2).blk t).view.emb y) = V c main_v2 y
  refine congrArg (V c main_v2) ?_
  funext a; apply Fin.ext
  match a with
  | ⟨0, _⟩ => show win1_2.index t (0 : Fin 2) * 2048 + 1 * (y 0).val = (y 0).val; omega
  | ⟨1, _⟩ => show win1_2.index t (1 : Fin 2) * 2048 + 1 * (y 1).val = (y 1).val; omega

theorem whole3 (c : Dev nD) (t : Fin cfg1.N) : iblk1 V c 3 t = V c main_v3 := by
  obtain ⟨e0, e1, e2, e3, e4, e5, e6, e7, e8, e9, e10, e11⟩ := idx_facts t
  funext y
  show V c main_v3 (((cfg1.win 3).blk t).view.emb y) = V c main_v3 y
  refine congrArg (V c main_v3) ?_
  funext a; apply Fin.ext
  match a with
  | ⟨0, _⟩ => show win1_3.index t (0 : Fin 2) * 2048 + 1 * (y 0).val = (y 0).val; omega
  | ⟨1, _⟩ => show win1_3.index t (1 : Fin 2) * 2048 + 1 * (y 1).val = (y 1).val; omega

/-- The bias window's one block is the whole bias row. -/
theorem whole4 (c : Dev nD) (t : Fin cfg1.N) : iblk1 V c 4 t = V c main_v7 := by
  obtain ⟨e0, e1, e2, e3, e4, e5, e6, e7, e8, e9, e10, e11⟩ := idx_facts t
  funext y
  show V c main_v7 (((cfg1.win 4).blk t).view.emb y) = V c main_v7 y
  refine congrArg (V c main_v7) ?_
  funext a; apply Fin.ext
  match a with
  | ⟨0, _⟩ => show win1_4.index t (0 : Fin 2) * 1 + 1 * (y 0).val = (y 0).val; omega
  | ⟨1, _⟩ => show win1_4.index t (1 : Fin 2) * 2048 + 1 * (y 1).val = (y 1).val; omega

/-- The output block keeps the column. -/
theorem col5 (t : Fin cfg1.N) (j : S256x2048.Idx) :
    ((((cfg1.win 5).blk t).view.emb j) 1).val = (j 1).val := by
  obtain ⟨e0, e1, e2, e3, e4, e5, e6, e7, e8, e9, e10, e11⟩ := idx_facts t
  show win1_5.index t (1 : Fin 2) * 2048 + 1 * (j 1).val = (j 1).val
  omega

/-- What point `t` writes back is block `t` of the gated state of the arrays as the launch finds them. -/
theorem flushed_eq (c : Dev nD) (t : Fin cfg1.N) :
    (dat1 V c).flushed 5 t = ((cfg1.win 5).blk t).view.read (Elt Ideal)
      (rhGate (V c main_arg0) (V c main_arg1) (V c main_v2) (V c main_v3) (fun q => V c main_v7 (ix2 (0 : Fin 1) q))) := by
  show (cfg1.win 5).cut (grid1.coords t) ((dat1 V c).after 5 t) = _
  rw [after1_5]
  unfold out1_5
  rw [View.canon_unit_zero hz]
  simp only [View.ld_unit_zero (S := S256x2048) hz, View.ld_unit_zero (S := S2048x2048) hz, View.ld_unit_zero (S := S1x2048) hz]
  funext j
  show k1_pay1 (F := Ideal) (iblk1 V c 0 t) (iblk1 V c 1 t) (iblk1 V c 2 t) (iblk1 V c 3 t) (iblk1 V c 4 t) (iblk1 V c 1 t) j
    = rhGate (V c main_arg0) (V c main_arg1) (V c main_v2) (V c main_v3) (fun q => V c main_v7 (ix2 (0 : Fin 1) q))
        (((cfg1.win 5).blk t).view.emb j)
  exact point (iblk1 V c 0 t) (iblk1 V c 1 t) (iblk1 V c 2 t) (iblk1 V c 3 t) (iblk1 V c 4 t)
    (V c main_arg0) (V c main_arg1) (V c main_v2) (V c main_v3) (V c main_v7) j (((cfg1.win 5).blk t).view.emb j)
    (fun k => rows0 V c t j k) (fun k => rows1 V c t j k) (whole2 V c t) (whole3 V c t) (whole4 V c t) (col5 t j)

/-- An index of the output array is in point `t`'s block iff each coordinate is in the block's range. -/
theorem mem_blk (t : Fin cfg1.N) (i : S8192x2048.Idx) :
    i ∈ ((cfg1.win 5).blk t).view.set ↔ ∀ a : Fin 2, win1_5.index t a * S256x2048.size a ≤ (i a).val
      ∧ (i a).val < win1_5.index t a * S256x2048.size a + S256x2048.size a := by
  show i ∈ ((View.whole main_v10).slice (win1_5.rect t)).set ↔ _
  rw [View.set_slice_whole, Rect.mem_set_unit]
  exact Iff.rfl

/-- The blocks cover the array: row `r` is in the block of point `r / 256`. -/
theorem cover (i : S8192x2048.Idx) :
    ∃ t : Fin cfg1.N, (cfg1.win 5).flush t = true ∧ i ∈ ((cfg1.win 5).blk t).view.set := by
  have hi0 : (i 0).val < 8192 := (i 0).isLt
  have hi1 : (i 1).val < 2048 := (i 1).isLt
  obtain ⟨t, ht⟩ := idx_onto ⟨(i 0).val / 256, by omega⟩
  have q0 : win1_5.index t (0 : Fin 2) = (i 0).val / 256 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 2048 ≤ (i 1).val ∧ (i 1).val < win1_5.index t (1 : Fin 2) * 2048 + 2048; omega

/-- THE OUTPUT ARRAY after the launch: the reset gate times the state, of the arrays the launch finds. -/
theorem final (c : Dev nD) :
    (dat1 V c).arrAt 5 cfg1.N
      = rhGate (V c main_arg0) (V c main_arg1) (V c main_v2) (V c main_v3) (fun q => V c main_v7 (ix2 (0 : Fin 1) q)) :=
  (dat1 V c).arrAt_eq_of_cover 5 _ (fun t _ => flushed_eq V c t) cover

end Cert.KernelIdeal.Region1

end
-- ==== Proof.Region2.lean ====
/-
  The last launch: its output array is the new state `(1 - z) ⊙ h + z ⊙ tanh(x Wh + (r ⊙ h) Uh + bh)` of the arrays
  the launch finds, among them the two gate arrays the earlier launches wrote.

  The grid has 32 points; point `t` takes rows `256 t … 256 t + 255` of `x`, of `h`, of `z` and of `r ⊙ h`, the two
  weight arrays and the bias row whole, and writes the same rows of the output. The value at a row needs only that
  row of the four batch arrays, so what a point writes is the whole-array new state read through the point's
  block; the 32 blocks cover the 8192 rows.
-/
import proofs.«180760_j50062138802351_2_alg».proof.Proof.Gen.KernelIdeal.Frame
import proofs.«180760_j50062138802351_2_alg».proof.Proof.Payloads
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Gru Cert.KernelIdeal.Payloads
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row blocks move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Every row block is some point's. -/
theorem idx_onto : ∀ q0 : Fin 32, ∃ t : Fin cfg2.N, win2_7.index t = ![q0.val, 0] :=
  (by decide +kernel : ∀ q0 : Fin 32, ∃ t : Fin grid2.N, win2_7.index t = ![q0.val, 0])

/-- The value at an index of a block, from the blocks the body loads, when those blocks are the arrays' rows. -/
theorem point (x h : Vec Ideal S256x2048 .f32) (z rh : Vec Ideal S256x2048 .bf16) (w u : Vec Ideal S2048x2048 .bf16)
    (b : Vec Ideal S1x2048 .f32)
    (A0 A1 AZ ARH : (Rows 8192).Idx → EReal) (W U : SW.Idx → EReal) (B : S1x2048.Idx → EReal)
    (j : S256x2048.Idx) (i : (Rows 8192).Idx)
    (h0 : ∀ k : Fin 2048, x (ix2 (j 0) k) = A0 (ix2 (i 0) k))
    (h1 : ∀ k : Fin 2048, h (ix2 (j 0) k) = A1 (ix2 (i 0) k))
    (h2 : ∀ k : Fin 2048, z (ix2 (j 0) k) = AZ (ix2 (i 0) k))
    (h3 : ∀ k : Fin 2048, rh (ix2 (j 0) k) = ARH (ix2 (i 0) k))
    (h4 : w = W) (h5 : u = U) (h6 : b = B) (hq : (i 1).val = (j 1).val) :
    k2_pay1 (F := Ideal) x rh w u b z h j = newState A0 A1 AZ ARH W U (fun q => B (ix2 (0 : Fin 1) q)) i := by
  subst h4 h5 h6
  obtain ⟨p, q, rfl⟩ : ∃ (p : Fin 256) (q : Fin 2048), j = ix2 p q := ⟨j 0, j 1, eq_ix2 j⟩
  obtain ⟨r, q', rfl⟩ : ∃ (r : Fin 8192) (q' : Fin 2048), i = ix2 r q' := ⟨i 0, i 1, eq_ix2 i⟩
  obtain rfl : q' = q := Fin.ext hq
  rw [pay2_apply, newState_apply, pre_congr _ _ _ _ _ _ _ p r q' h0 h3,
    show z (ix2 p q') = AZ (ix2 r q') from h2 q', show h (ix2 p q') = A1 (ix2 r q') from h1 q']

/-- Row `p` of point `t`'s block of `x` is the array's row under the output block's row. -/
theorem rows0 (c : Dev nD) (t : Fin cfg2.N) (j : S256x2048.Idx) (k : Fin 2048) :
    iblk2 V c 0 t (ix2 (j 0) k) = V c main_arg0 (ix2 ((((cfg2.win 7).blk t).view.emb j) 0) k) := by
  obtain ⟨e0, e1, e2, e3, e4, e5, e6, e7, e8, e9, e10, e11, e12, e13, e14, e15⟩ := idx_facts t
  show V c main_arg0 (((cfg2.win 0).blk t).view.emb (ix2 (j 0) k)) = _
  refine congrArg (V c main_arg0) ?_
  funext a; apply Fin.ext
  match a with
  | ⟨0, _⟩ => show win2_0.index t (0 : Fin 2) * 256 + 1 * (j 0).val = win2_7.index t (0 : Fin 2) * 256 + 1 * (j 0).val; omega
  | ⟨1, _⟩ => show win2_0.index t (1 : Fin 2) * 2048 + 1 * k.val = k.val; omega

/-- The same for the state `h`. -/
theorem rows1 (c : Dev nD) (t : Fin cfg2.N) (j : S256x2048.Idx) (k : Fin 2048) :
    iblk2 V c 1 t (ix2 (j 0) k) = V c main_arg1 (ix2 ((((cfg2.win 7).blk t).view.emb j) 0) k) := by
  obtain ⟨e0, e1, e2, e3, e4, e5, e6, e7, e8, e9, e10, e11, e12, e13, e14, e15⟩ := idx_facts t
  show V c main_arg1 (((cfg2.win 1).blk t).view.emb (ix2 (j 0) k)) = _
  refine congrArg (V c main_arg1) ?_
  funext a; apply Fin.ext
  match a with
  | ⟨0, _⟩ => show win2_1.index t (0 : Fin 2) * 256 + 1 * (j 0).val = win2_7.index t (0 : Fin 2) * 256 + 1 * (j 0).val; omega
  | ⟨1, _⟩ => show win2_1.index t (1 : Fin 2) * 2048 + 1 * k.val = k.val; omega

/-- The same for the update gate `z`. -/
theorem rows2 (c : Dev nD) (t : Fin cfg2.N) (j : S256x2048.Idx) (k : Fin 2048) :
    iblk2 V c 2 t (ix2 (j 0) k) = V c main_v9 (ix2 ((((cfg2.win 7).blk t).view.emb j) 0) k) := by
  obtain ⟨e0, e1, e2, e3, e4, e5, e6, e7, e8, e9, e10, e11, e12, e13, e14, e15⟩ := idx_facts t
  show V c main_v9 (((cfg2.win 2).blk t).view.emb (ix2 (j 0) k)) = _
  refine congrArg (V c main_v9) ?_
  funext a; apply Fin.ext
  match a with
  | ⟨0, _⟩ => show win2_2.index t (0 : Fin 2) * 256 + 1 * (j 0).val = win2_7.index t (0 : Fin 2) * 256 + 1 * (j 0).val; omega
  | ⟨1, _⟩ => show win2_2.index t (1 : Fin 2) * 2048 + 1 * k.val = k.val; omega

/-- The same for the gated state `r ⊙ h`. -/
theorem rows3 (c : Dev nD) (t : Fin cfg2.N) (j : S256x2048.Idx) (k : Fin 2048) :
    iblk2 V c 3 t (ix2 (j 0) k) = V c main_v10 (ix2 ((((cfg2.win 7).blk t).view.emb j) 0) k) := by
  obtain ⟨e0, e1, e2, e3, e4, e5, e6, e7, e8, e9, e10, e11, e12, e13, e14, e15⟩ := idx_facts t
  show V c main_v10 (((cfg2.win 3).blk t).view.emb (ix2 (j 0) k)) = _
  refine congrArg (V c main_v10) ?_
  funext a; apply Fin.ext
  match a with
  | ⟨0, _⟩ => show win2_3.index t (0 : Fin 2) * 256 + 1 * (j 0).val = win2_7.index t (0 : Fin 2) * 256 + 1 * (j 0).val; omega
  | ⟨1, _⟩ => show win2_3.index t (1 : Fin 2) * 2048 + 1 * k.val = k.val; omega

/-- A weight window's one block is its whole array. -/
theorem whole4 (c : Dev nD) (t : Fin cfg2.N) : iblk2 V c 4 t = V c main_v4 := by
  obtain ⟨e0, e1, e2, e3, e4, e5, e6, e7, e8, e9, e10, e11, e12, e13, e14, e15⟩ := idx_facts t
  funext y
  show V c main_v4 (((cfg2.win 4).blk t).view.emb y) = V c main_v4 y
  refine congrArg (V c main_v4) ?_
  funext a; apply Fin.ext
  match a with
  | ⟨0, _⟩ => show win2_4.index t (0 : Fin 2) * 2048 + 1 * (y 0).val = (y 0).val; omega
  | ⟨1, _⟩ => show win2_4.index t (1 : Fin 2) * 2048 + 1 * (y 1).val = (y 1).val; omega

/-- The same for the second weight array. -/
theorem whole5 (c : Dev nD) (t : Fin cfg2.N) : iblk2 V c 5 t = V c main_v5 := by
  obtain ⟨e0, e1, e2, e3, e4, e5, e6, e7, e8, e9, e10, e11, e12, e13, e14, e15⟩ := idx_facts t
  funext y
  show V c main_v5 (((cfg2.win 5).blk t).view.emb y) = V c main_v5 y
  refine congrArg (V c main_v5) ?_
  funext a; apply Fin.ext
  match a with
  | ⟨0, _⟩ => show win2_5.index t (0 : Fin 2) * 2048 + 1 * (y 0).val = (y 0).val; omega
  | ⟨1, _⟩ => show win2_5.index t (1 : Fin 2) * 2048 + 1 * (y 1).val = (y 1).val; omega

/-- The bias window's one block is the whole bias row. -/
theorem whole6 (c : Dev nD) (t : Fin cfg2.N) : iblk2 V c 6 t = V c main_v8 := by
  obtain ⟨e0, e1, e2, e3, e4, e5, e6, e7, e8, e9, e10, e11, e12, e13, e14, e15⟩ := idx_facts t
  funext y
  show V c main_v8 (((cfg2.win 6).blk t).view.emb y) = V c main_v8 y
  refine congrArg (V c main_v8) ?_
  funext a; apply Fin.ext
  match a with
  | ⟨0, _⟩ => show win2_6.index t (0 : Fin 2) * 1 + 1 * (y 0).val = (y 0).val; omega
  | ⟨1, _⟩ => show win2_6.index t (1 : Fin 2) * 2048 + 1 * (y 1).val = (y 1).val; omega

/-- The output block keeps the column. -/
theorem col7 (t : Fin cfg2.N) (j : S256x2048.Idx) :
    ((((cfg2.win 7).blk t).view.emb j) 1).val = (j 1).val := by
  obtain ⟨e0, e1, e2, e3, e4, e5, e6, e7, e8, e9, e10, e11, e12, e13, e14, e15⟩ := idx_facts t
  show win2_7.index t (1 : Fin 2) * 2048 + 1 * (j 1).val = (j 1).val
  omega

/-- What point `t` writes back is block `t` of the new state of the arrays as the launch finds them. -/
theorem flushed_eq (c : Dev nD) (t : Fin cfg2.N) :
    (dat2 V c).flushed 7 t = ((cfg2.win 7).blk t).view.read (Elt Ideal)
      (newState (V c main_arg0) (V c main_arg1) (V c main_v9) (V c main_v10) (V c main_v4) (V c main_v5) (fun q => V c main_v8 (ix2 (0 : Fin 1) q))) := by
  show (cfg2.win 7).cut (grid2.coords t) ((dat2 V c).after 7 t) = _
  rw [after2_7]
  unfold out2_7
  rw [View.canon_unit_zero hz]
  simp only [View.ld_unit_zero (S := S256x2048) hz, View.ld_unit_zero (S := S2048x2048) hz, View.ld_unit_zero (S := S1x2048) hz]
  funext j
  show k2_pay1 (F := Ideal) (iblk2 V c 0 t) (iblk2 V c 3 t) (iblk2 V c 4 t) (iblk2 V c 5 t) (iblk2 V c 6 t) (iblk2 V c 2 t) (iblk2 V c 1 t) j
    = newState (V c main_arg0) (V c main_arg1) (V c main_v9) (V c main_v10) (V c main_v4) (V c main_v5) (fun q => V c main_v8 (ix2 (0 : Fin 1) q))
        (((cfg2.win 7).blk t).view.emb j)
  exact point (iblk2 V c 0 t) (iblk2 V c 1 t) (iblk2 V c 2 t) (iblk2 V c 3 t) (iblk2 V c 4 t) (iblk2 V c 5 t) (iblk2 V c 6 t)
    (V c main_arg0) (V c main_arg1) (V c main_v9) (V c main_v10) (V c main_v4) (V c main_v5) (V c main_v8) j (((cfg2.win 7).blk t).view.emb j)
    (fun k => rows0 V c t j k) (fun k => rows1 V c t j k) (fun k => rows2 V c t j k) (fun k => rows3 V c t j k)
    (whole4 V c t) (whole5 V c t) (whole6 V c t) (col7 t j)

/-- An index of the output array is in point `t`'s block iff each coordinate is in the block's range. -/
theorem mem_blk (t : Fin cfg2.N) (i : S8192x2048.Idx) :
    i ∈ ((cfg2.win 7).blk t).view.set ↔ ∀ a : Fin 2, win2_7.index t a * S256x2048.size a ≤ (i a).val
      ∧ (i a).val < win2_7.index t a * S256x2048.size a + S256x2048.size a := by
  show i ∈ ((View.whole main_v11).slice (win2_7.rect t)).set ↔ _
  rw [View.set_slice_whole, Rect.mem_set_unit]
  exact Iff.rfl

/-- The blocks cover the array: row `r` is in the block of point `r / 256`. -/
theorem cover (i : S8192x2048.Idx) :
    ∃ t : Fin cfg2.N, (cfg2.win 7).flush t = true ∧ i ∈ ((cfg2.win 7).blk t).view.set := by
  have hi0 : (i 0).val < 8192 := (i 0).isLt
  have hi1 : (i 1).val < 2048 := (i 1).isLt
  obtain ⟨t, ht⟩ := idx_onto ⟨(i 0).val / 256, by omega⟩
  have q0 : win2_7.index t (0 : Fin 2) = (i 0).val / 256 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 256 ≤ (i 0).val ∧ (i 0).val < win2_7.index t (0 : Fin 2) * 256 + 256; omega
  | ⟨1, _⟩ => show win2_7.index t (1 : Fin 2) * 2048 ≤ (i 1).val ∧ (i 1).val < win2_7.index t (1 : Fin 2) * 2048 + 2048; omega

/-- THE OUTPUT ARRAY after the launch: the new state of the arrays the launch finds. -/
theorem final (c : Dev nD) :
    (dat2 V c).arrAt 7 cfg2.N
      = newState (V c main_arg0) (V c main_arg1) (V c main_v9) (V c main_v10) (V c main_v4) (V c main_v5) (fun q => V c main_v8 (ix2 (0 : Fin 1) q)) :=
  (dat2 V c).arrAt_eq_of_cover 7 _ (fun t _ => flushed_eq V c t) cover

end Cert.KernelIdeal.Region2

end
-- ==== Proof.Chain.lean ====
/-
  The result buffer after the three launches, walked back to the arguments.

  The last launch leaves the new state of the arrays it finds; of those, `x` and `h` are the arguments (no launch
  and no host operation writes them), the two gate arrays are what the first two launches left — the update gate
  and the gated state of the arrays THEY found, again the arguments and converted weights —, and the weight and
  bias arrays are the host's conversions of the arguments: a change of float format, the identity on the extended
  reals, and a vector laid out as one row. Put together, the result buffer holds the cell of the arguments.
-/
import proofs.«180760_j50062138802351_2_alg».proof.Proof.Region0
import proofs.«180760_j50062138802351_2_alg».proof.Proof.Region1
import proofs.«180760_j50062138802351_2_alg».proof.Proof.Region2
import proofs.«180760_j50062138802351_2_alg».proof.Proof.KernelRun
import Idealize.ShloMosaic.Lib.StableHlo.Run
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx Cert.Gru
open Idealize.ShloMosaic.Pipeline (Dat)

variable (m : (ℓ : Loc nD τ sig) → Buf (Elt Ideal) ℓ) (ρ : Dev nD → PrngReg)

/-! ## After the host operations: the arguments kept, the weights converted, the biases as rows -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl
theorem W1_v0 (c : Dev nD) : (W1 m ρ c (Proc.devRef .tc main_v0) : SW.Idx → EReal) = m ((c : Thread nD τ).loc main_arg2) := by
  show StableHlo.after hostOps0 (W0 m ρ c) (Proc.devRef .tc main_v0) = _
  after_results_simp <;> rfl
theorem W1_v1 (c : Dev nD) : (W1 m ρ c (Proc.devRef .tc main_v1) : SW.Idx → EReal) = m ((c : Thread nD τ).loc main_arg3) := by
  show StableHlo.after hostOps0 (W0 m ρ c) (Proc.devRef .tc main_v1) = _
  after_results_simp <;> rfl
theorem W1_v2 (c : Dev nD) : (W1 m ρ c (Proc.devRef .tc main_v2) : SW.Idx → EReal) = m ((c : Thread nD τ).loc main_arg5) := by
  show StableHlo.after hostOps0 (W0 m ρ c) (Proc.devRef .tc main_v2) = _
  after_results_simp <;> rfl
theorem W1_v3 (c : Dev nD) : (W1 m ρ c (Proc.devRef .tc main_v3) : SW.Idx → EReal) = m ((c : Thread nD τ).loc main_arg6) := by
  show StableHlo.after hostOps0 (W0 m ρ c) (Proc.devRef .tc main_v3) = _
  after_results_simp <;> rfl
theorem W1_v4 (c : Dev nD) : (W1 m ρ c (Proc.devRef .tc main_v4) : SW.Idx → EReal) = m ((c : Thread nD τ).loc main_arg8) := by
  show StableHlo.after hostOps0 (W0 m ρ c) (Proc.devRef .tc main_v4) = _
  after_results_simp <;> rfl
theorem W1_v5 (c : Dev nD) : (W1 m ρ c (Proc.devRef .tc main_v5) : SW.Idx → EReal) = m ((c : Thread nD τ).loc main_arg9) := by
  show StableHlo.after hostOps0 (W0 m ρ c) (Proc.devRef .tc main_v5) = _
  after_results_simp <;> rfl
theorem W1_v6 (c : Dev nD) (q : Fin 2048) :
    (W1 m ρ c (Proc.devRef .tc main_v6) : S1x2048.Idx → EReal) (ix2 (0 : Fin 1) q) = (m ((c : Thread nD τ).loc main_arg4) : S2048.Idx → EReal) (ix1 q) := by
  have e : (W1 m ρ c (Proc.devRef .tc main_v6) : S1x2048.Idx → EReal)
      = shapeCast S1x2048 (m ((c : Thread nD τ).loc main_arg4) : S2048.Idx → EReal) Facts₀.shapeCasts_S2048_S1x2048 := by
    show StableHlo.after hostOps0 (W0 m ρ c) (Proc.devRef .tc main_v6) = _
    after_results_simp <;> rfl
  rw [e]
  exact shapeCast_a_1a_apply _ _ 0 q
theorem W1_v7 (c : Dev nD) (q : Fin 2048) :
    (W1 m ρ c (Proc.devRef .tc main_v7) : S1x2048.Idx → EReal) (ix2 (0 : Fin 1) q) = (m ((c : Thread nD τ).loc main_arg7) : S2048.Idx → EReal) (ix1 q) := by
  have e : (W1 m ρ c (Proc.devRef .tc main_v7) : S1x2048.Idx → EReal)
      = shapeCast S1x2048 (m ((c : Thread nD τ).loc main_arg7) : S2048.Idx → EReal) Facts₀.shapeCasts_S2048_S1x2048 := by
    show StableHlo.after hostOps0 (W0 m ρ c) (Proc.devRef .tc main_v7) = _
    after_results_simp <;> rfl
  rw [e]
  exact shapeCast_a_1a_apply _ _ 0 q
theorem W1_v8 (c : Dev nD) (q : Fin 2048) :
    (W1 m ρ c (Proc.devRef .tc main_v8) : S1x2048.Idx → EReal) (ix2 (0 : Fin 1) q) = (m ((c : Thread nD τ).loc main_arg10) : S2048.Idx → EReal) (ix1 q) := by
  have e : (W1 m ρ c (Proc.devRef .tc main_v8) : S1x2048.Idx → EReal)
      = shapeCast S1x2048 (m ((c : Thread nD τ).loc main_arg10) : S2048.Idx → EReal) Facts₀.shapeCasts_S2048_S1x2048 := by
    show StableHlo.after hostOps0 (W0 m ρ c) (Proc.devRef .tc main_v8) = _
    after_results_simp <;> rfl
  rw [e]
  exact shapeCast_a_1a_apply _ _ 0 q

/-! ## After the update-gate launch -/

theorem W2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_arg1 (c : Dev nD) : W2 m ρ c (Proc.devRef .tc main_arg1) = W1 m ρ c (Proc.devRef .tc main_arg1) :=
  (W2_arr m ρ c 1).trans (((dat0 (V1 m ρ) c).arrAt_in 1 rfl _).trans (A_eq0 (V1 m ρ) c 1))
theorem W2_v2 (c : Dev nD) : W2 m ρ c (Proc.devRef .tc main_v2) = W1 m ρ c (Proc.devRef .tc main_v2) :=
  W2_of_ne m ρ c main_v2 (by decide)
theorem W2_v3 (c : Dev nD) : W2 m ρ c (Proc.devRef .tc main_v3) = W1 m ρ c (Proc.devRef .tc main_v3) :=
  W2_of_ne m ρ c main_v3 (by decide)
theorem W2_v7 (c : Dev nD) : W2 m ρ c (Proc.devRef .tc main_v7) = W1 m ρ c (Proc.devRef .tc main_v7) :=
  W2_of_ne m ρ c main_v7 (by decide)
theorem W2_v4 (c : Dev nD) : W2 m ρ c (Proc.devRef .tc main_v4) = W1 m ρ c (Proc.devRef .tc main_v4) :=
  W2_of_ne m ρ c main_v4 (by decide)
theorem W2_v5 (c : Dev nD) : W2 m ρ c (Proc.devRef .tc main_v5) = W1 m ρ c (Proc.devRef .tc main_v5) :=
  W2_of_ne m ρ c main_v5 (by decide)
theorem W2_v8 (c : Dev nD) : W2 m ρ c (Proc.devRef .tc main_v8) = W1 m ρ c (Proc.devRef .tc main_v8) :=
  W2_of_ne m ρ c main_v8 (by decide)

/-- The update gate's array, of the arguments. -/
theorem W2_v9 (c : Dev nD) :
    (W2 m ρ c (Proc.devRef .tc main_v9) : (Rows 8192).Idx → EReal)
      = zGate (m ((c : Thread nD τ).loc main_arg0)) (m ((c : Thread nD τ).loc main_arg1)) (m ((c : Thread nD τ).loc main_arg2)) (m ((c : Thread nD τ).loc main_arg3))
          (fun q => (m ((c : Thread nD τ).loc main_arg4) : S2048.Idx → EReal) (ix1 q)) := by
  have e0 : V1 m ρ c main_arg0 = m ((c : Thread nD τ).loc main_arg0) := W1_arg0 m ρ c
  have e1 : V1 m ρ c main_arg1 = m ((c : Thread nD τ).loc main_arg1) := W1_arg1 m ρ c
  have e2 : (V1 m ρ c main_v0 : SW.Idx → EReal) = m ((c : Thread nD τ).loc main_arg2) := W1_v0 m ρ c
  have e3 : (V1 m ρ c main_v1 : SW.Idx → EReal) = m ((c : Thread nD τ).loc main_arg3) := W1_v1 m ρ c
  have e4 : (fun q : Fin 2048 => (V1 m ρ c main_v6 : S1x2048.Idx → EReal) (ix2 (0 : Fin 1) q))
      = fun q => (m ((c : Thread nD τ).loc main_arg4) : S2048.Idx → EReal) (ix1 q) := funext fun q => W1_v6 m ρ c q
  refine ((W2_arr m ρ c 5).trans (Region0.final (V1 m ρ) c)).trans ?_
  rw [e0, e1, e2, e3, e4]

/-! ## After the reset-gate launch -/

theorem W3_arg0 (c : Dev nD) : W3 m ρ c (Proc.devRef .tc main_arg0) = W2 m ρ c (Proc.devRef .tc main_arg0) :=
  (W3_arr m ρ c 0).trans (((dat1 (V2 m ρ) c).arrAt_in 0 rfl _).trans (A_eq1 (V2 m ρ) c 0))
theorem W3_arg1 (c : Dev nD) : W3 m ρ c (Proc.devRef .tc main_arg1) = W2 m ρ c (Proc.devRef .tc main_arg1) :=
  (W3_arr m ρ c 1).trans (((dat1 (V2 m ρ) c).arrAt_in 1 rfl _).trans (A_eq1 (V2 m ρ) c 1))
theorem W3_v9 (c : Dev nD) : W3 m ρ c (Proc.devRef .tc main_v9) = W2 m ρ c (Proc.devRef .tc main_v9) :=
  W3_of_ne m ρ c main_v9 (by decide)
theorem W3_v4 (c : Dev nD) : W3 m ρ c (Proc.devRef .tc main_v4) = W2 m ρ c (Proc.devRef .tc main_v4) :=
  W3_of_ne m ρ c main_v4 (by decide)
theorem W3_v5 (c : Dev nD) : W3 m ρ c (Proc.devRef .tc main_v5) = W2 m ρ c (Proc.devRef .tc main_v5) :=
  W3_of_ne m ρ c main_v5 (by decide)
theorem W3_v8 (c : Dev nD) : W3 m ρ c (Proc.devRef .tc main_v8) = W2 m ρ c (Proc.devRef .tc main_v8) :=
  W3_of_ne m ρ c main_v8 (by decide)

/-- The gated state's array, of the arguments. -/
theorem W3_v10 (c : Dev nD) :
    (W3 m ρ c (Proc.devRef .tc main_v10) : (Rows 8192).Idx → EReal)
      = rhGate (m ((c : Thread nD τ).loc main_arg0)) (m ((c : Thread nD τ).loc main_arg1)) (m ((c : Thread nD τ).loc main_arg5)) (m ((c : Thread nD τ).loc main_arg6))
          (fun q => (m ((c : Thread nD τ).loc main_arg7) : S2048.Idx → EReal) (ix1 q)) := by
  have e0 : V2 m ρ c main_arg0 = m ((c : Thread nD τ).loc main_arg0) := (W2_arg0 m ρ c).trans (W1_arg0 m ρ c)
  have e1 : V2 m ρ c main_arg1 = m ((c : Thread nD τ).loc main_arg1) := (W2_arg1 m ρ c).trans (W1_arg1 m ρ c)
  have e2 : (V2 m ρ c main_v2 : SW.Idx → EReal) = m ((c : Thread nD τ).loc main_arg5) := (W2_v2 m ρ c).trans (W1_v2 m ρ c)
  have e3 : (V2 m ρ c main_v3 : SW.Idx → EReal) = m ((c : Thread nD τ).loc main_arg6) := (W2_v3 m ρ c).trans (W1_v3 m ρ c)
  have e4 : (fun q : Fin 2048 => (V2 m ρ c main_v7 : S1x2048.Idx → EReal) (ix2 (0 : Fin 1) q))
      = fun q => (m ((c : Thread nD τ).loc main_arg7) : S2048.Idx → EReal) (ix1 q) :=
    funext fun q => (congrFun (W2_v7 m ρ c) _).trans (W1_v7 m ρ c q)
  refine ((W3_arr m ρ c 5).trans (Region1.final (V2 m ρ) c)).trans ?_
  rw [e0, e1, e2, e3, e4]

/-! ## After the last launch -/

/-- THE RESULT BUFFER holds the cell of the arguments. -/
theorem result (c : Dev nD) :
    (W4 m ρ c (Proc.devRef .tc main_v11) : (Rows 8192).Idx → EReal)
      = cell (m ((c : Thread nD τ).loc main_arg0)) (m ((c : Thread nD τ).loc main_arg1))
          (m ((c : Thread nD τ).loc main_arg2)) (m ((c : Thread nD τ).loc main_arg3)) (fun q => (m ((c : Thread nD τ).loc main_arg4) : S2048.Idx → EReal) (ix1 q))
          (m ((c : Thread nD τ).loc main_arg5)) (m ((c : Thread nD τ).loc main_arg6)) (fun q => (m ((c : Thread nD τ).loc main_arg7) : S2048.Idx → EReal) (ix1 q))
          (m ((c : Thread nD τ).loc main_arg8)) (m ((c : Thread nD τ).loc main_arg9)) (fun q => (m ((c : Thread nD τ).loc main_arg10) : S2048.Idx → EReal) (ix1 q)) := by
  have e0 : V3 m ρ c main_arg0 = m ((c : Thread nD τ).loc main_arg0) := ((W3_arg0 m ρ c).trans (W2_arg0 m ρ c)).trans (W1_arg0 m ρ c)
  have e1 : V3 m ρ c main_arg1 = m ((c : Thread nD τ).loc main_arg1) := ((W3_arg1 m ρ c).trans (W2_arg1 m ρ c)).trans (W1_arg1 m ρ c)
  have e2 : (V3 m ρ c main_v9 : (Rows 8192).Idx → EReal) = _ := (W3_v9 m ρ c).trans (W2_v9 m ρ c)
  have e3 : (V3 m ρ c main_v10 : (Rows 8192).Idx → EReal) = _ := W3_v10 m ρ c
  have e4 : (V3 m ρ c main_v4 : SW.Idx → EReal) = m ((c : Thread nD τ).loc main_arg8) := ((W3_v4 m ρ c).trans (W2_v4 m ρ c)).trans (W1_v4 m ρ c)
  have e5 : (V3 m ρ c main_v5 : SW.Idx → EReal) = m ((c : Thread nD τ).loc main_arg9) := ((W3_v5 m ρ c).trans (W2_v5 m ρ c)).trans (W1_v5 m ρ c)
  have e6 : (fun q : Fin 2048 => (V3 m ρ c main_v8 : S1x2048.Idx → EReal) (ix2 (0 : Fin 1) q))
      = fun q => (m ((c : Thread nD τ).loc main_arg10) : S2048.Idx → EReal) (ix1 q) :=
    funext fun q => ((congrFun (W3_v8 m ρ c) _).trans (congrFun (W2_v8 m ρ c) _)).trans (W1_v8 m ρ c q)
  refine ((W4_arr m ρ c 7).trans (Region2.final (V3 m ρ) c)).trans ?_
  rw [e0, e1, e2, e3, e4, e5, e6]
  rfl

end Cert.KernelIdeal.Chain

end
-- ==== Proof.RefValue.lean ====
/-
  The reference computes the cell.

  The reference multiplies `x` once by the three input-side weight arrays laid side by side (`[Wz | Wr | Wh]`, 6144
  columns) and `h` once by `[Uz | Ur]`, and cuts the products back into column ranges. A column `2048 n + q` of a
  side-by-side array is column `q` of its `n`-th piece, so each cut is the plain product with one weight array.
  The sigmoid is spelt `1 / (1 + e^(-s))`, which is the logistic function of the extended reals; the biases are
  rows copied down the batch. Index by index the result is the cell of the specification.
-/
import proofs.«180760_j50062138802351_2_alg».proof.Proof.Gen.ReferenceIdeal.Read
import proofs.«180760_j50062138802351_2_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.Gru

/-- The contents of a batch array, of a weight array and of a bias vector. -/
abbrev Batch : Type := (⟨S8192x2048, .f32⟩ : BufTy).Contents (Elt Ideal)
abbrev Weight : Type := (⟨S2048x2048, .f32⟩ : BufTy).Contents (Elt Ideal)
abbrev Bias : Type := (⟨S2048, .f32⟩ : BufTy).Contents (Elt Ideal)

/-! ## The side-by-side weight arrays read at a column -/

/-- `[A | B | C]` at a column of its first third is `A`. -/
theorem cat3_0 (A B C : Weight) (j : S2048x6144.Idx) (k q : Fin 2048) (h0 : (j 0).val = k.val) (h1 : (j 1).val = q.val) :
    val_main_v0 (F := Ideal) A B C j = A (ix2 k q) := by
  unfold val_main_v0
  exact concatenate_apply_piece (1 : Fin 2) _ _ j 0 (by show (0 : Nat) < _ + 1; omega) S2048x2048 A rfl rfl 0 rfl (ix2 k q)
    (fun b => match b with | ⟨0, _⟩ => fun _ => h0.symm | ⟨1, _⟩ => fun hb => absurd (Fin.ext rfl) hb)
    (by show 0 + q.val = (j 1).val; omega)

/-- At a column of its second third it is `B`. -/
theorem cat3_1 (A B C : Weight) (j : S2048x6144.Idx) (k q : Fin 2048) (h0 : (j 0).val = k.val) (h1 : (j 1).val = 2048 + q.val) :
    val_main_v0 (F := Ideal) A B C j = B (ix2 k q) := by
  unfold val_main_v0
  exact concatenate_apply_piece (1 : Fin 2) _ _ j 1 (by show (1 : Nat) < _ + 2; omega) S2048x2048 B rfl rfl 2048 rfl (ix2 k q)
    (fun b => match b with | ⟨0, _⟩ => fun _ => h0.symm | ⟨1, _⟩ => fun hb => absurd (Fin.ext rfl) hb)
    (by show 2048 + q.val = (j 1).val; omega)

/-- At a column of its last third it is `C`. -/
theorem cat3_2 (A B C : Weight) (j : S2048x6144.Idx) (k q : Fin 2048) (h0 : (j 0).val = k.val) (h1 : (j 1).val = 4096 + q.val) :
    val_main_v0 (F := Ideal) A B C j = C (ix2 k q) := by
  unfold val_main_v0
  exact concatenate_apply_piece (1 : Fin 2) _ _ j 2 (by show (2 : Nat) < _ + 3; omega) S2048x2048 C rfl rfl 4096 rfl (ix2 k q)
    (fun b => match b with | ⟨0, _⟩ => fun _ => h0.symm | ⟨1, _⟩ => fun hb => absurd (Fin.ext rfl) hb)
    (by show 4096 + q.val = (j 1).val; omega)

/-- `[A | B]` at a column of its first half is `A`. -/
theorem cat2_0 (A B : Weight) (j : S2048x4096.Idx) (k q : Fin 2048) (h0 : (j 0).val = k.val) (h1 : (j 1).val = q.val) :
    val_main_v5 (F := Ideal) A B j = A (ix2 k q) := by
  unfold val_main_v5
  exact concatenate_apply_piece (1 : Fin 2) _ _ j 0 (by show (0 : Nat) < _ + 1; omega) S2048x2048 A rfl rfl 0 rfl (ix2 k q)
    (fun b => match b with | ⟨0, _⟩ => fun _ => h0.symm | ⟨1, _⟩ => fun hb => absurd (Fin.ext rfl) hb)
    (by show 0 + q.val = (j 1).val; omega)

/-- At a column of its second half it is `B`. -/
theorem cat2_1 (A B : Weight) (j : S2048x4096.Idx) (k q : Fin 2048) (h0 : (j 0).val = k.val) (h1 : (j 1).val = 2048 + q.val) :
    val_main_v5 (F := Ideal) A B j = B (ix2 k q) := by
  unfold val_main_v5
  exact concatenate_apply_piece (1 : Fin 2) _ _ j 1 (by show (1 : Nat) < _ + 2; omega) S2048x2048 B rfl rfl 2048 rfl (ix2 k q)
    (fun b => match b with | ⟨0, _⟩ => fun _ => h0.symm | ⟨1, _⟩ => fun hb => absurd (Fin.ext rfl) hb)
    (by show 2048 + q.val = (j 1).val; omega)

/-! ## The five cuts of the two fused products: each is a plain product with one weight array -/

theorem xWz (x : Batch) (Wz Wr Wh : Weight) (p : Fin 8192) (q : Fin 2048) :
    val_main_v2 (F := Ideal) x Wz Wr Wh (ix2 p q) = ∑ k : Fin 2048, x (ix2 p k) * Wz (ix2 k q) := by
  rw [val_main_v2_apply, val_main_v1_apply]
  refine Finset.sum_congr rfl fun k _ => ?_
  rw [cat3_0 Wz Wr Wh _ k q rfl rfl,
    show lidx_main_v1 (idx_main_v2 (ix2 p q)) k = ix2 p k from
      funext fun a => Fin.ext (by match a with | ⟨0, _⟩ => rfl | ⟨1, _⟩ => rfl)]

theorem xWr (x : Batch) (Wz Wr Wh : Weight) (p : Fin 8192) (q : Fin 2048) :
    val_main_v3 (F := Ideal) x Wz Wr Wh (ix2 p q) = ∑ k : Fin 2048, x (ix2 p k) * Wr (ix2 k q) := by
  rw [val_main_v3_apply, val_main_v1_apply]
  refine Finset.sum_congr rfl fun k _ => ?_
  rw [cat3_1 Wz Wr Wh _ k q rfl rfl,
    show lidx_main_v1 (idx_main_v3 (ix2 p q)) k = ix2 p k from
      funext fun a => Fin.ext (by match a with | ⟨0, _⟩ => rfl | ⟨1, _⟩ => rfl)]

theorem xWh (x : Batch) (Wz Wr Wh : Weight) (p : Fin 8192) (q : Fin 2048) :
    val_main_v4 (F := Ideal) x Wz Wr Wh (ix2 p q) = ∑ k : Fin 2048, x (ix2 p k) * Wh (ix2 k q) := by
  rw [val_main_v4_apply, val_main_v1_apply]
  refine Finset.sum_congr rfl fun k _ => ?_
  rw [cat3_2 Wz Wr Wh _ k q rfl rfl,
    show lidx_main_v1 (idx_main_v4 (ix2 p q)) k = ix2 p k from
      funext fun a => Fin.ext (by match a with | ⟨0, _⟩ => rfl | ⟨1, _⟩ => rfl)]

theorem hUz (h : Batch) (Uz Ur : Weight) (p : Fin 8192) (q : Fin 2048) :
    val_main_v7 (F := Ideal) h Uz Ur (ix2 p q) = ∑ k : Fin 2048, h (ix2 p k) * Uz (ix2 k q) := by
  rw [val_main_v7_apply, val_main_v6_apply]
  refine Finset.sum_congr rfl fun k _ => ?_
  rw [cat2_0 Uz Ur _ k q rfl rfl,
    show lidx_main_v6 (idx_main_v7 (ix2 p q)) k = ix2 p k from
      funext fun a => Fin.ext (by match a with | ⟨0, _⟩ => rfl | ⟨1, _⟩ => rfl)]

theorem hUr (h : Batch) (Uz Ur : Weight) (p : Fin 8192) (q : Fin 2048) :
    val_main_v8 (F := Ideal) h Uz Ur (ix2 p q) = ∑ k : Fin 2048, h (ix2 p k) * Ur (ix2 k q) := by
  rw [val_main_v8_apply, val_main_v6_apply]
  refine Finset.sum_congr rfl fun k _ => ?_
  rw [cat2_1 Uz Ur _ k q rfl rfl,
    show lidx_main_v6 (idx_main_v8 (ix2 p q)) k = ix2 p k from
      funext fun a => Fin.ext (by match a with | ⟨0, _⟩ => rfl | ⟨1, _⟩ => rfl)]

/-! ## The biases: a vector as one row, the row copied down the batch -/

theorem bias_z (b : Bias) (p : Fin 8192) (q : Fin 2048) : val_main_v11 (F := Ideal) b (ix2 p q) = b (ix1 q) := by
  rw [val_main_v11_apply, val_main_v10_apply]
  exact congrArg b (funext fun a => Fin.ext (by match a with | ⟨0, _⟩ => rfl))

theorem bias_r (b : Bias) (p : Fin 8192) (q : Fin 2048) : val_main_v21 (F := Ideal) b (ix2 p q) = b (ix1 q) := by
  rw [val_main_v21_apply, val_main_v20_apply]
  exact congrArg b (funext fun a => Fin.ext (by match a with | ⟨0, _⟩ => rfl))

theorem bias_h (b : Bias) (p : Fin 8192) (q : Fin 2048) : val_main_v33 (F := Ideal) b (ix2 p q) = b (ix1 q) := by
  rw [val_main_v33_apply, val_main_v32_apply]
  exact congrArg b (funext fun a => Fin.ext (by match a with | ⟨0, _⟩ => rfl))

/-! ## The splats of the literal one -/

theorem one15 (i : S8192x2048.Idx) : val_main_v15 (F := Ideal) i = one := by rw [val_main_v15_apply]; rfl
theorem one17 (i : S8192x2048.Idx) : val_main_v17 (F := Ideal) i = one := by rw [val_main_v17_apply]; rfl
theorem one25 (i : S8192x2048.Idx) : val_main_v25 (F := Ideal) i = one := by rw [val_main_v25_apply]; rfl
theorem one27 (i : S8192x2048.Idx) : val_main_v27 (F := Ideal) i = one := by rw [val_main_v27_apply]; rfl
theorem one36 (i : S8192x2048.Idx) : val_main_v36 (F := Ideal) i = one := by rw [val_main_v36_apply]; rfl

/-! ## The gates -/

/-- The reference's update gate is `z`. -/
theorem ref_z (x h : Batch) (Wz Uz : Weight) (bz : Bias) (Wr Ur Wh : Weight) (p : Fin 8192) (q : Fin 2048) :
    val_main_v18 (F := Ideal) x h Wz Uz bz Wr Ur Wh (ix2 p q) = zGate x h Wz Uz (fun c => bz (ix1 c)) (ix2 p q) := by
  show Ideal.div (val_main_v17 (F := Ideal) (ix2 p q)) (val_main_v15 (F := Ideal) (ix2 p q)
      + Ideal.exp (-((val_main_v2 (F := Ideal) x Wz Wr Wh (ix2 p q) + val_main_v7 (F := Ideal) h Uz Ur (ix2 p q))
        + val_main_v11 (F := Ideal) bz (ix2 p q)))) = _
  rw [one17, one15, xWz, hUz, bias_z, one_eq]
  rfl

/-- The reference's reset gate times the state is `r ⊙ h`. -/
theorem ref_rh (x h : Batch) (Wz Uz Wr Ur : Weight) (br : Bias) (Wh : Weight) (p : Fin 8192) (q : Fin 2048) :
    val_main_v29 (F := Ideal) x h Wz Uz Wr Ur br Wh (ix2 p q) = rhGate x h Wr Ur (fun c => br (ix1 c)) (ix2 p q) := by
  show Ideal.div (val_main_v27 (F := Ideal) (ix2 p q)) (val_main_v25 (F := Ideal) (ix2 p q)
      + Ideal.exp (-((val_main_v3 (F := Ideal) x Wz Wr Wh (ix2 p q) + val_main_v8 (F := Ideal) h Uz Ur (ix2 p q))
        + val_main_v21 (F := Ideal) br (ix2 p q)))) * h (ix2 p q) = _
  rw [one27, one25, xWr, hUr, bias_r, one_eq]
  rfl

/-- The product of `r ⊙ h` with `Uh`. -/
theorem ref_rhUh (x h : Batch) (Wz Uz Wr Ur : Weight) (br : Bias) (Wh Uh : Weight) (p : Fin 8192) (q : Fin 2048) :
    val_main_v30 (F := Ideal) x h Wz Uz Wr Ur br Wh Uh (ix2 p q)
      = ∑ k : Fin 2048, rhGate x h Wr Ur (fun c => br (ix1 c)) (ix2 p k) * Uh (ix2 k q) := by
  rw [val_main_v30_apply]
  refine Finset.sum_congr rfl fun k _ => ?_
  rw [show lidx_main_v30 (ix2 p q) k = ix2 p k from funext fun a => Fin.ext (by match a with | ⟨0, _⟩ => rfl | ⟨1, _⟩ => rfl),
    show ridx_main_v30 (ix2 p q) k = ix2 k q from funext fun a => Fin.ext (by match a with | ⟨0, _⟩ => rfl | ⟨1, _⟩ => rfl),
    ref_rh]

/-! ## The result -/

/-- THE REFERENCE'S RESULT is the cell of its arguments. -/
theorem ref_cell (x h : Batch) (Wz Uz : Weight) (bz : Bias) (Wr Ur : Weight) (br : Bias) (Wh Uh : Weight) (bh : Bias) :
    val_main_v40 (F := Ideal) x h Wz Uz bz Wr Ur br Wh Uh bh
      = cell x h Wz Uz (fun c => bz (ix1 c)) Wr Ur (fun c => br (ix1 c)) Wh Uh (fun c => bh (ix1 c)) := by
  funext i
  obtain ⟨p, q, rfl⟩ : ∃ (p : Fin 8192) (q : Fin 2048), i = ix2 p q := ⟨i 0, i 1, eq_ix2 i⟩
  show (val_main_v36 (F := Ideal) (ix2 p q) - val_main_v18 (F := Ideal) x h Wz Uz bz Wr Ur Wh (ix2 p q)) * h (ix2 p q)
      + val_main_v18 (F := Ideal) x h Wz Uz bz Wr Ur Wh (ix2 p q)
        * Ideal.tanh ((val_main_v4 (F := Ideal) x Wz Wr Wh (ix2 p q)
            + val_main_v30 (F := Ideal) x h Wz Uz Wr Ur br Wh Uh (ix2 p q)) + val_main_v33 (F := Ideal) bh (ix2 p q)) = _
  rw [one36, ref_z, xWh, ref_rhUh, bias_h]
  rfl

end Cert.ReferenceIdeal.RefValue

end
-- ==== Proof.lean ====
/-
  A gated recurrent cell computed by three launches against its one-expression form.

  The kernel program converts the six weight arrays' float format, lays the three bias vectors out as rows, and
  runs three launches over 32 blocks of 256 rows: the update gate `z = σ(x Wz + h Uz + bz)`, the gated state
  `r ⊙ h = σ(x Wr + h Ur + br) ⊙ h`, and the new state `(1 - z) ⊙ h + z ⊙ tanh(x Wh + (r ⊙ h) Uh + bh)`. The reference
  forms `x [Wz | Wr | Wh]` and `h [Uz | Ur]` as two wide products, cuts them into column ranges, and applies the same
  formulas with the sigmoid written `1 / (1 + e^(-s))`.

  On the extended reals a change of float format is the identity, a block product into a zero accumulator and
  the host's product are the same sum over the 2048 columns, a column range of a product with side-by-side
  weights is the product with one of them, and the one-operation sigmoid is `1 / (1 + e^(-s))`. Both programs
  therefore compute, index by index, one and the same expression of the arguments (Proof/Spec.lean), with every
  sum and product in the same order: no law of arithmetic beyond that is used, and the inputs' finiteness is
  never opened.

  Proof/Payloads.lean reads what each launch's body stores at an index of its block; Proof/Region0.lean,
  Region1.lean and Region2.lean turn that into each launch's output array as one function of the arrays it finds;
  Proof/KernelRun.lean is the program's run with the result buffer named; Proof/Chain.lean walks the result back
  through the three launches and the host conversions to the arguments; Proof/RefValue.lean reads the reference.
  No operation is rewritten between the word-level program and its reading on the extended reals.
-/
import proofs.«180760_j50062138802351_2_alg».proof.Defs
import proofs.«180760_j50062138802351_2_alg».proof.Proof.Gen.Kernel
import proofs.«180760_j50062138802351_2_alg».proof.Proof.Gen.Kernel.Frame
import proofs.«180760_j50062138802351_2_alg».proof.Proof.Gen.KernelIdeal
import proofs.«180760_j50062138802351_2_alg».proof.Proof.Gen.KernelIdeal.Frame
import proofs.«180760_j50062138802351_2_alg».proof.Proof.Gen.ReferenceIdeal
import proofs.«180760_j50062138802351_2_alg».proof.Proof.Gen.Pre_finite_inputs
import proofs.«180760_j50062138802351_2_alg».proof.Proof.Gen.ReferenceIdeal.Run
import proofs.«180760_j50062138802351_2_alg».proof.Proof.Gen.ReferenceIdeal.Read
import proofs.«180760_j50062138802351_2_alg».proof.Proof.KernelRun
import proofs.«180760_j50062138802351_2_alg».proof.Proof.Chain
import proofs.«180760_j50062138802351_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.Gru

/-- The word-level kernel program runs and keeps its arguments. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments both programs end with the cell of the arguments in their result. -/
theorem algebraic : Cert.algebraic_KernelIdeal_ReferenceIdeal := by
  intro m ρ m' ρ' _ hagree
  refine ⟨fun c => cell (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (fun q => (m ((c.tc : Thread Cert.KernelIdeal.nD Cert.KernelIdeal.τ).loc Cert.KernelIdeal.main_arg4) : Cert.KernelIdeal.S2048.Idx → EReal) (ix1 q))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (fun q => (m ((c.tc : Thread Cert.KernelIdeal.nD Cert.KernelIdeal.τ).loc Cert.KernelIdeal.main_arg7) : Cert.KernelIdeal.S2048.Idx → EReal) (ix1 q))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (fun q => (m ((c.tc : Thread Cert.KernelIdeal.nD Cert.KernelIdeal.τ).loc Cert.KernelIdeal.main_arg10) : Cert.KernelIdeal.S2048.Idx → EReal) (ix1 q)), ?_, ?_⟩
  · exact (θ_run Cert.KernelIdeal.defs _ _).mono
      (fun r h c => ⟨(h c).1.trans (Cert.KernelIdeal.Chain.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v40_eq, Cert.ReferenceIdeal.RefValue.ref_cell,
      a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
